-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg13 : FVec F S128 .f32) (main_arg14 : FVec F S128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg10 : FVec F S128x128 .f32) (main_arg11 : FVec F S128x128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_v33

def fn {F : FTy → Type} [FloatOps F] (main_arg0 : FVec F S50000x128 .f32) (main_arg1 : FVec F S50000x128 .f32) (main_arg2 : FVec F S50000x128 .f32) (main_arg3 : IVec S600000 32) (main_arg4 : IVec S600000 32) (main_arg5 : IVec S600000 32) (main_arg6 : IVec S600000 32) (main_arg7 : IVec S600000 32) (main_arg8 : IVec S600000 32) (main_arg9 : FVec F S128x128 .f32) (main_arg10 : FVec F S128x128 .f32) (main_arg11 : FVec F S128x128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 60
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S1x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_cst : Ref sig .tc := ⟨.hbm, 53, rfl⟩
abbrev main_call1_v0 : Ref sig .tc := ⟨.hbm, 54, rfl⟩
abbrev main_v30 : Ref sig .tc := ⟨.hbm, 55, rfl⟩
abbrev main_v31 : Ref sig .tc := ⟨.hbm, 56, rfl⟩
abbrev main_c_4 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.EndState.lean ====
/-
  The end of the idealized kernel program's run, buffer by buffer.

  The program is three stretches of host operations, each followed by one call. Its run is the run of those six
  segments in order; the buffer contents at each boundary are a fold from the launch memory: a stretch applies its
  operations, a call replaces its five arrays by what its write-backs leave and keeps every other buffer. The
  statement here is the one behind the frame claim, kept whole instead of projected to the arguments: every weakly
  fair execution terminates without a fault, and at the end EVERY buffer that outlives the calls holds the last
  boundary's contents. The three results and the fifteen arguments are then read off that one fact.
-/
import proofs.«131037_j66185446032026_2_alg».proof.Proof.Gen.KernelIdeal.Frame

set_option maxRecDepth 16384

noncomputable section

namespace Cert.KernelIdeal.EndState

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that outlives the
    calls ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- A buffer of the program's own (not a call's staging buffer) at the end of a run. -/
theorem at_end (r : PUnit × MemSt nD τ sig (Elt F))
    (h : ∀ c : Dev nD, ∀ b ∈ Pipeline.ucRefs τ sig, r.2.mem (((c : Thread nD τ)).1, b) = W6 m ρ c b)
    (c : Dev nD) (b : Ref sig .tc) (hb : ¬ (Proc.devRef .tc b : DevRef τ sig).isScoped) :
    r.2.mem ((c.tc : Thread nD τ).loc b) = W6 m ρ c (Proc.devRef .tc b) :=
  h c _ (mem_uc b hb)

end Cert.KernelIdeal.EndState

end
-- ==== Proof.Entry.lean ====
/-
  What the host writes before the first call.

  For each of the three branches the host computes the aggregate of the branch: every edge carries the feature row
  of its source node (a negative source index counted from the end, as array indexing does) to its destination
  node, and the rows arriving at a node are summed from zero. It also lays the first bias out as one row. These
  are read here off the first stretch of host operations, each result as its operation's function of the launch
  contents of the arguments.
-/
import proofs.«131037_j66185446032026_2_alg».proof.Proof.Gen.KernelIdeal.Frame
import Idealize.ShloMosaic.Lib.StableHlo.Run
import Idealize.ShloMosaic.PureOps.Ideal

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

/-- The aggregate of one branch: the gathered source rows of the edges, scatter-added into a zero array at the
    edges' destinations. -/
def aggregate (x : (⟨S50000x128, .f32⟩ : BufTy).Contents (Elt Ideal)) (src dst : (⟨S600000, .i32⟩ : BufTy).Contents (Elt Ideal)) :
    (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))

/-- A bias laid out as one row. -/
def biasRow (b : (⟨S128, .f32⟩ : BufTy).Contents (Elt Ideal)) : (⟨S1x128, .f32⟩ : BufTy).Contents (Elt Ideal) :=
  broadcastInDim S1x128 ![1] bcast_S128_S1x128_1 b

variable (m : (ℓ : Loc nD τ sig) → Buf (Elt Ideal) ℓ) (ρ : Dev nD → PrngReg)

/-- After the first stretch the first branch's aggregate is in its buffer, -/
theorem host_agg0 (c : Dev nD) : W1 m ρ c (Proc.devRef .tc main_v9)
    = aggregate (m ((c : Thread nD τ).loc main_arg0)) (m ((c : Thread nD τ).loc main_arg3)) (m ((c : Thread nD τ).loc main_arg4)) := by
  show StableHlo.after hostOps0 (W0 m ρ c) (Proc.devRef .tc main_v9) = _
  after_results_simp
  rfl

/-- the second branch's, -/
theorem host_agg1 (c : Dev nD) : W1 m ρ c (Proc.devRef .tc main_v19)
    = aggregate (m ((c : Thread nD τ).loc main_arg1)) (m ((c : Thread nD τ).loc main_arg5)) (m ((c : Thread nD τ).loc main_arg6)) := by
  show StableHlo.after hostOps0 (W0 m ρ c) (Proc.devRef .tc main_v19) = _
  after_results_simp
  rfl

/-- the third branch's, -/
theorem host_agg2 (c : Dev nD) : W1 m ρ c (Proc.devRef .tc main_v29)
    = aggregate (m ((c : Thread nD τ).loc main_arg2)) (m ((c : Thread nD τ).loc main_arg7)) (m ((c : Thread nD τ).loc main_arg8)) := by
  show StableHlo.after hostOps0 (W0 m ρ c) (Proc.devRef .tc main_v29) = _
  after_results_simp
  rfl

/-- and the first bias is laid out as a row. -/
theorem host_bias0 (c : Dev nD) : W1 m ρ c (Proc.devRef .tc main_v30) = biasRow (m ((c : Thread nD τ).loc main_arg12)) := by
  show StableHlo.after hostOps0 (W0 m ρ c) (Proc.devRef .tc main_v30) = _
  after_results_simp
  rfl

end Cert.KernelIdeal.Entry

end
-- ==== Proof.EntryArgs.lean ====
/-
  The first stretch of host operations writes none of the argument arrays: after it, the node features, the weight
  matrices and the biases still hold their launch contents.
-/
import proofs.«131037_j66185446032026_2_alg».proof.Proof.Gen.KernelIdeal.Frame
import Idealize.ShloMosaic.Lib.StableHlo.Run
import Idealize.ShloMosaic.PureOps.Ideal

set_option maxRecDepth 16384

noncomputable section

namespace Cert.KernelIdeal.EntryArgs

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem host_keeps_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem host_keeps_arg1 (c : Dev nD) : W1 m ρ c (Proc.devRef .tc main_arg1) = (m ((c : Thread nD τ).loc main_arg1)) := by
  show StableHlo.after hostOps0 (W0 m ρ c) (Proc.devRef .tc main_arg1) = _
  after_results_simp <;> rfl

theorem host_keeps_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl

theorem host_keeps_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl

theorem host_keeps_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl

theorem host_keeps_arg11 (c : Dev nD) : W1 m ρ c (Proc.devRef .tc main_arg11) = (m ((c : Thread nD τ).loc main_arg11)) := by
  show StableHlo.after hostOps0 (W0 m ρ c) (Proc.devRef .tc main_arg11) = _
  after_results_simp <;> rfl

theorem host_keeps_arg13 (c : Dev nD) : W1 m ρ c (Proc.devRef .tc main_arg13) = (m ((c : Thread nD τ).loc main_arg13)) := by
  show StableHlo.after hostOps0 (W0 m ρ c) (Proc.devRef .tc main_arg13) = _
  after_results_simp <;> rfl

theorem host_keeps_arg14 (c : Dev nD) : W1 m ρ c (Proc.devRef .tc main_arg14) = (m ((c : Thread nD τ).loc main_arg14)) := by
  show StableHlo.after hostOps0 (W0 m ρ c) (Proc.devRef .tc main_arg14) = _
  after_results_simp <;> rfl

end Cert.KernelIdeal.EntryArgs

end
-- ==== Proof.Found.lean ====
/-
  What each call finds in its arrays.

  A call replaces its own five arrays and keeps every other buffer, the stretches between the calls only lay out
  the next bias, and no call's output is another call's input. So the second and third calls find in their
  aggregate, node features and weights what the first stretch of host operations left there — the branch's
  aggregate, and the launch contents of the arguments — and in their bias row the bias laid out just before.
-/
import proofs.«131037_j66185446032026_2_alg».proof.Proof.Entry
import proofs.«131037_j66185446032026_2_alg».proof.Proof.EntryArgs

set_option maxRecDepth 16384

noncomputable section

namespace Cert.KernelIdeal.Found

open Idealize.ShloMosaic Idealize.ShloMosaic.TcCoe Idealize.SL.Sem Idealize.ShloMosaic.StableHlo
open Cert.KernelIdeal Cert.KernelIdeal.Gen
open Cert.KernelIdeal.Entry Cert.KernelIdeal.EntryArgs

variable (m : (ℓ : Loc nD τ sig) → Buf (Elt Ideal) ℓ) (ρ : Dev nD → PrngReg)

/-! ## The first call: straight after the first stretch -/

theorem agg0 (c : Dev nD) : V1 m ρ c main_v9 = aggregate (m ((c : Thread nD τ).loc main_arg0)) (m ((c : Thread nD τ).loc main_arg3)) (m ((c : Thread nD τ).loc main_arg4)) :=
  host_agg0 m ρ c
theorem own0 (c : Dev nD) : V1 m ρ c main_arg0 = (m ((c : Thread nD τ).loc main_arg0)) := host_keeps_arg0 m ρ c
theorem weights0 (c : Dev nD) : V1 m ρ c main_arg9 = (m ((c : Thread nD τ).loc main_arg9)) := host_keeps_arg9 m ρ c
theorem bias0 (c : Dev nD) : V1 m ρ c main_v30 = biasRow (m ((c : Thread nD τ).loc main_arg12)) := host_bias0 m ρ c

/-! ## The second call: after the first call and the second bias' layout -/

theorem agg1 (c : Dev nD) : V3 m ρ c main_v19 = aggregate (m ((c : Thread nD τ).loc main_arg1)) (m ((c : Thread nD τ).loc main_arg5)) (m ((c : Thread nD τ).loc main_arg6)) := by
  show StableHlo.after hostOps1 (W2 m ρ c) (Proc.devRef .tc main_v19) = _
  after_results
  rw [W2_of_ne m ρ c main_v19 (by decide)]
  exact host_agg1 m ρ c
theorem own1 (c : Dev nD) : V3 m ρ c main_arg1 = (m ((c : Thread nD τ).loc main_arg1)) := by
  show StableHlo.after hostOps1 (W2 m ρ c) (Proc.devRef .tc main_arg1) = _
  after_results
  rw [W2_of_ne m ρ c main_arg1 (by decide)]
  exact host_keeps_arg1 m ρ c
theorem weights1 (c : Dev nD) : V3 m ρ c main_arg10 = (m ((c : Thread nD τ).loc main_arg10)) := by
  show StableHlo.after hostOps1 (W2 m ρ c) (Proc.devRef .tc main_arg10) = _
  after_results
  rw [W2_of_ne m ρ c main_arg10 (by decide)]
  exact host_keeps_arg10 m ρ c
theorem bias1 (c : Dev nD) : V3 m ρ c main_v32 = biasRow (m ((c : Thread nD τ).loc main_arg13)) := by
  show StableHlo.after hostOps1 (W2 m ρ c) (Proc.devRef .tc main_v32) = _
  after_results
  rw [W2_of_ne m ρ c main_arg13 (by decide), host_keeps_arg13 m ρ c]
  rfl

/-! ## The third call: after two calls and the third bias' layout -/

/-- The third branch's aggregate is an array of neither earlier call and is written by no later stretch: it is
    still what the first stretch left. -/
theorem agg2 (c : Dev nD) : V5 m ρ c main_v29 = aggregate (m ((c : Thread nD τ).loc main_arg2)) (m ((c : Thread nD τ).loc main_arg7)) (m ((c : Thread nD τ).loc main_arg8)) := by
  show StableHlo.after hostOps2 (W4 m ρ c) (Proc.devRef .tc main_v29) = _
  after_results
  rw [W4_of_ne m ρ c main_v29 (by decide)]
  show StableHlo.after hostOps1 (W2 m ρ c) (Proc.devRef .tc main_v29) = _
  after_results
  rw [W2_of_ne m ρ c main_v29 (by decide)]
  exact host_agg2 m ρ c
theorem own2 (c : Dev nD) : V5 m ρ c main_arg2 = (m ((c : Thread nD τ).loc main_arg2)) := by
  show StableHlo.after hostOps2 (W4 m ρ c) (Proc.devRef .tc main_arg2) = _
  after_results
  rw [W4_of_ne m ρ c main_arg2 (by decide)]
  show StableHlo.after hostOps1 (W2 m ρ c) (Proc.devRef .tc main_arg2) = _
  after_results
  rw [W2_of_ne m ρ c main_arg2 (by decide)]
  exact host_keeps_arg2 m ρ c
theorem weights2 (c : Dev nD) : V5 m ρ c main_arg11 = (m ((c : Thread nD τ).loc main_arg11)) := by
  show StableHlo.after hostOps2 (W4 m ρ c) (Proc.devRef .tc main_arg11) = _
  after_results
  rw [W4_of_ne m ρ c main_arg11 (by decide)]
  show StableHlo.after hostOps1 (W2 m ρ c) (Proc.devRef .tc main_arg11) = _
  after_results
  rw [W2_of_ne m ρ c main_arg11 (by decide)]
  exact host_keeps_arg11 m ρ c
theorem bias2 (c : Dev nD) : V5 m ρ c main_v34 = biasRow (m ((c : Thread nD τ).loc main_arg14)) := by
  show StableHlo.after hostOps2 (W4 m ρ c) (Proc.devRef .tc main_v34) = _
  after_results
  rw [W4_of_ne m ρ c main_arg14 (by decide)]
  have h : W3 m ρ c (Proc.devRef .tc main_arg14) = (m ((c : Thread nD τ).loc main_arg14)) := by
    show StableHlo.after hostOps1 (W2 m ρ c) (Proc.devRef .tc main_arg14) = _
    after_results
    rw [W2_of_ne m ρ c main_arg14 (by decide)]
    exact host_keeps_arg14 m ρ c
  rw [h]
  rfl

end Cert.KernelIdeal.Found

end
-- ==== Proof.LibMatmulAt.lean ====
/-
  General lemmas, on the extended reals and on index arithmetic, with no program in them:
  a plain matrix product into a zero accumulator read at one entry, and two changes of shape that only move a unit axis.
-/
import Idealize.ShloMosaic.Lib.Pipeline.Value
import Idealize.ShloMosaic.Lib.ValueIdx
import Idealize.ShloMosaic.PureOps.Ideal.Laws

noncomputable section

namespace Cert.LibMatmulAt

open Idealize.ShloMosaic Idealize.ShloMosaic.ValueIdx

/-- A product of an [M, K] by a [K, N] matrix into a zero accumulator, read at row `p`, column `j`: the sum over the
    contracted axis of row `p` of the left factor against column `j` of the right one. The four hypotheses say where
    the dimension numbers put the output's coordinates and the contraction's in the operands. -/
theorem matmul_zero_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    matmul d prec lhs rhs (constant ⟨2, ![M, N]⟩ .f32 0x00000000#32) (ix2 p j) = ∑ k : Fin K, lhs (ix2 p k) * rhs (ix2 k j) := by
  show FloatOps.matmul d prec lhs rhs (constant ⟨2, ![M, N]⟩ .f32 0x00000000#32) (ix2 p j) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A vector of `a` numbers viewed as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of `a` numbers viewed as one row reads, at `(u, i)`, the column at `(i, v)`. -/
theorem shapeCast_a1_1a_apply {α : Type} {a : ℕ} (x : (⟨2, ![a, 1]⟩ : Shape).Idx → α) (h : (⟨2, ![a, 1]⟩ : Shape).ShapeCasts ⟨2, ![1, a]⟩)
    (u v : Fin 1) (i : Fin a) : shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

end Cert.LibMatmulAt

end
-- ==== Proof.Body.lean ====
/-
  What one call of the epilogue body stores, read at one entry.

  The body loads a tile of 5000 aggregate rows `x0`, the same rows of the node features `x1`, the whole weight
  matrix `x2` and the bias row `x3`; it multiplies the tile by the weights into a zero accumulator, adds the bias
  row to every row, rectifies, and adds the node features. The narrowing of the two factors to a shorter float
  format before the product is the identity on the extended reals, and the reshapes are to the same shape, so at
  row `p` and column `j` of the tile the stored number is

      max (∑ k, x0 (p, k) · x2 (k, j) + x3 (0, j)) 0 + x1 (p, j).

  The three calls of the program run the same body text; their stored values are one function.
-/
import proofs.«131037_j66185446032026_2_alg».proof.Proof.Gen.KernelIdeal.Skeleton
import proofs.«131037_j66185446032026_2_alg».proof.Proof.LibMatmulAt
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-! ## Where the product's dimension numbers put the coordinates

The tile product contracts the tile's columns with the weights' rows: at output entry `i` and contraction index `q`
the left factor is read at `(i 0, q)` and the right one at `(q, i 1)`. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The stored tile at an entry -/

/-- The bias row spread over the tile's rows reads, at `(p, j)`, the row at `(0, j)`. -/
theorem bias_rows (x3 : Vec Ideal S1x128 .f32) (p : Fin 5000) (j : Fin 128) :
    broadcastTo S5000x128 x3 broadcasts_S1x128_S5000x128 (ix2 p j) = x3 (ix2 0 j) :=
  broadcastTo_apply x3 broadcasts_S1x128_S5000x128 (ix2 p j) (ix2 0 j) (fun a => by
    match a with
    | ⟨0, _⟩ => show (0 : Nat) = if (1 : Nat) = 1 then 0 else _; rw [if_pos rfl]
    | ⟨1, _⟩ => show j.val = if (128 : Nat) = 1 then 0 else j.val; rw [if_neg (by decide)])

/-- The first call's stored tile at row `p`, column `j`. -/
theorem stored_apply (x0 x1 : Vec Ideal S5000x128 .f32) (x2 : Vec Ideal S128x128 .f32) (x3 : Vec Ideal S1x128 .f32)
    (p : Fin 5000) (j : Fin 128) :
    k0_pay1 (F := Ideal) x0 x1 x2 x3 (ix2 p j)
      = max ((∑ k : Fin 128, x0 (ix2 p k) * x2 (ix2 k j)) + x3 (ix2 0 j)) (Ideal.ofBits .f32 0x00000000#32) + x1 (ix2 p j) := by
  unfold k0_pay1
  rw [shapeCast_self, shapeCast_self]
  show max ((matmul (F := Ideal) dot_S5000x128_S128x128_S5000x128_1_0_0_1_n_n none
        (truncf (F := Ideal) .bf16 (x0 : FVec Ideal S5000x128 .f32) bitsLt_bf16_f32)
        (truncf (F := Ideal) .bf16 (x2 : FVec Ideal S128x128 .f32) bitsLt_bf16_f32)
        (constant (F := Ideal) S5000x128 .f32 0x00000000#32) (ix2 p j) : EReal)
      + broadcastTo S5000x128 x3 broadcasts_S1x128_S5000x128 (ix2 p j))
      (Ideal.ofBits .f32 0x00000000#32) + x1 (ix2 p j) = _
  rw [Cert.LibMatmulAt.matmul_zero_apply dot_S5000x128_S128x128_S5000x128_1_0_0_1_n_n rfl rfl lhs_row lhs_col rhs_row rhs_col,
    bias_rows]
  rfl

/-- The second and third calls store the same function of their loads. -/
theorem stored1_eq : @k1_pay1 Ideal _ = @k0_pay1 Ideal _ := rfl
theorem stored2_eq : @k2_pay1 Ideal _ = @k0_pay1 Ideal _ := rfl

end Cert.KernelIdeal.Body

end
-- ==== Proof.Spec.lean ====
/-
  One branch of the graph-convolution layer, entry by entry.

  A branch takes the aggregated neighbour features `agg` (for every node, the sum of the feature rows of the
  sources of its incoming edges), the node's own features `h`, a square weight matrix `W` and a bias row `b`,
  and returns, at node `r` and feature `j`,

      max (∑ k, agg (r, k) · W (k, j) + b (0, j)) 0 + h (r, j)

  on the extended reals: a linear map, a bias, a rectifier and the residual connection. Nothing here needs the
  numbers to be finite: no law of arithmetic is used, only the order in which the same operations are written.
  The zero of the rectifier is kept as the float word both programs print for it.
-/
import Idealize.ShloMosaic.PureOps.Ideal
import Idealize.ShloMosaic.Lib.ValueIdx

noncomputable section

namespace Cert.GraphConv

open Idealize.ShloMosaic Idealize.ShloMosaic.ValueIdx

/-- Features of all nodes: 50000 nodes, 128 features each. -/
abbrev Nodes : Shape := ⟨2, ![50000, 128]⟩
/-- A weight matrix: input feature by output feature. -/
abbrev Weights : Shape := ⟨2, ![128, 128]⟩
/-- A bias, as one row of 128 numbers. -/
abbrev BiasRow : Shape := ⟨2, ![1, 128]⟩

/-- One branch of the layer at node `i 0` and feature `i 1`: row `i 0` of the aggregate against column `i 1` of
    the weights, plus the bias of that feature, rectified, plus the node's own feature. -/
def layer (agg h : Nodes.Idx → EReal) (W : Weights.Idx → EReal) (b : BiasRow.Idx → EReal) : Nodes.Idx → EReal :=
  fun i => max ((∑ k : Fin 128, agg (ix2 (n0 := 50000) (n1 := 128) (i 0) k) * W (ix2 (n0 := 128) (n1 := 128) k (i 1)))
      + b (ix2 (n0 := 1) (n1 := 128) 0 (i 1))) (Ideal.ofBits .f32 0x00000000#32) + h i

/-- The same, with the node and the feature named. -/
theorem layer_apply (agg h : Nodes.Idx → EReal) (W : Weights.Idx → EReal) (b : BiasRow.Idx → EReal) (r : Fin 50000) (j : Fin 128) :
    layer agg h W b (ix2 r j)
      = max ((∑ k : Fin 128, agg (ix2 r k) * W (ix2 k j)) + b (ix2 0 j)) (Ideal.ofBits .f32 0x00000000#32) + h (ix2 r j) := rfl

end Cert.GraphConv

end
-- ==== Proof.Tiles0.lean ====
/-
  The first call, from tiles to the whole array.

  The call walks ten grid points; point `t` reads rows `5000 t … 5000 t + 4999` of the aggregate and of the node
  features, the whole weight matrix and the whole bias row, and writes back the same rows of its output. So the
  tile written at point `t` is rows `5000 t …` of ONE function of the arrays the call finds — the layer of
  `Spec` — and, the ten tiles covering all 50000 rows (row `r` lies in tile `r / 5000`), the output array ends
  holding that function everywhere.
-/
import proofs.«131037_j66185446032026_2_alg».proof.Proof.Gen.KernelIdeal.Frame
import proofs.«131037_j66185446032026_2_alg».proof.Proof.Body
import proofs.«131037_j66185446032026_2_alg».proof.Proof.Spec
import Idealize.ShloMosaic.Lib.Pipeline.Value
import Idealize.ShloMosaic.Lib.ValueIdx

set_option maxRecDepth 16384

noncomputable section

namespace Cert.KernelIdeal.Tiles0

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the tiled windows sit at block row `t`, block column 0; the weights
    and the bias row are always block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each window's tile read where the array is -/

/-- Row `p` of the aggregate's tile at point `t` is row `5000 t + p` of the aggregate. -/
theorem agg_tile (c : Dev nD) (t : Fin cfg0.N) (p : Fin 5000) (k : Fin 128) (r : Fin 50000) (hr : r.val = t.val * 5000 + p.val) :
    iblk0 V c 0 t (ix2 p k) = V c main_v9 (ix2 r k) := by
  obtain ⟨e0, e1, -⟩ := index_facts t
  show V c main_v9 (((cfg0.win 0).blk t).view.emb (ix2 p k)) = V c main_v9 (ix2 r k)
  refine congrArg (V c main_v9) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of the node features' tile at point `t` is row `5000 t + p` of the node features. -/
theorem own_tile (c : Dev nD) (t : Fin cfg0.N) (p : Fin 5000) (j : Fin 128) (r : Fin 50000) (hr : r.val = t.val * 5000 + p.val) :
    iblk0 V c 1 t (ix2 p j) = V c main_arg0 (ix2 r j) := by
  obtain ⟨-, -, e0, e1, -⟩ := index_facts t
  show V c main_arg0 (((cfg0.win 1).blk t).view.emb (ix2 p j)) = V c main_arg0 (ix2 r j)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * j.val = j.val; omega

/-- The weights' tile is the whole weight matrix at every point. -/
theorem weights_tile (c : Dev nD) (t : Fin cfg0.N) (k j : Fin 128) :
    iblk0 V c 2 t (ix2 k j) = V c main_arg9 (ix2 k j) := by
  obtain ⟨-, -, -, -, e0, e1, -⟩ := index_facts t
  show V c main_arg9 (((cfg0.win 2).blk t).view.emb (ix2 k j)) = V c main_arg9 (ix2 k j)
  refine congrArg (V c main_arg9) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The bias' tile is the whole bias row at every point. -/
theorem bias_tile (c : Dev nD) (t : Fin cfg0.N) (j : Fin 128) :
    iblk0 V c 3 t (ix2 0 j) = V c main_v30 (ix2 0 j) := by
  obtain ⟨-, -, -, -, -, -, e0, e1, -⟩ := index_facts t
  show V c main_v30 (((cfg0.win 3).blk t).view.emb (ix2 0 j)) = V c main_v30 (ix2 0 j)
  refine congrArg (V c main_v30) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-! ## What a point writes back -/

/-- What point `t` writes back is tile `t` of the layer of the arrays the call finds. -/
theorem flushed_eq (c : Dev nD) (t : Fin cfg0.N) :
    (dat0 V c).flushed 4 t = ((cfg0.win 4).blk t).view.read (Elt Ideal)
      (layer (V c main_v9) (V c main_arg0) (V c main_arg9) (V c main_v30)) := by
  show (cfg0.win 4).cut (grid0.coords t) ((dat0 V c).after 4 t) = _
  rw [after0_4]
  unfold out0_4
  rw [View.canon_unit_zero origin]
  simp only [View.ld_unit_zero (S := S5000x128) origin, View.ld_unit_zero (S := S128x128) origin, View.ld_unit_zero (S := S1x128) origin]
  funext y
  obtain ⟨p, j, rfl⟩ : ∃ (p : Fin 5000) (j : Fin 128), y = ix2 p j := ⟨y 0, y 1, eq_ix2 y⟩
  obtain ⟨-, -, -, -, -, -, -, -, e0, e1⟩ := index_facts t
  have hN : grid0.N = 10 := N_0
  have ht : t.val < 10 := hN ▸ t.isLt
  have hp : p.val < 5000 := p.isLt
  have hrow : t.val * 5000 + p.val < 50000 := by omega
  have hemb : ((cfg0.win 4).blk t).view.emb (ix2 p j) = ix2 (⟨t.val * 5000 + p.val, hrow⟩ : Fin 50000) j := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * j.val = j.val; omega
  show k0_pay1 (F := Ideal) (iblk0 V c 0 t) (iblk0 V c 1 t) (iblk0 V c 2 t) (iblk0 V c 3 t) (ix2 p j)
    = layer (V c main_v9) (V c main_arg0) (V c main_arg9) (V c main_v30) (((cfg0.win 4).blk t).view.emb (ix2 p j))
  rw [hemb, layer_apply]
  refine (Body.stored_apply (iblk0 V c 0 t) (iblk0 V c 1 t) (iblk0 V c 2 t) (iblk0 V c 3 t) p j).trans ?_
  rw [own_tile V c t p j ⟨t.val * 5000 + p.val, hrow⟩ rfl, bias_tile V c t j]
  refine congrArg (fun s => max (s + V c main_v30 (ix2 0 j)) (Ideal.ofBits .f32 0x00000000#32) + V c main_arg0 (ix2 (⟨t.val * 5000 + p.val, hrow⟩ : Fin 50000) j)) ?_
  exact Finset.sum_congr rfl fun k _ => by rw [agg_tile V c t p k ⟨t.val * 5000 + p.val, hrow⟩ rfl, weights_tile V c t k j]

/-! ## The cover -/

/-- An entry of the output array is in point `t`'s tile iff each coordinate is in the tile's range on its axis. -/
theorem mem_tile (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v31).slice (win0_4.rect t)).set ↔ _
  rw [View.set_slice_whole, Rect.mem_set_unit]
  exact Iff.rfl

/-- Every entry is in the tile of the point `row / 5000`. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 10 := N_0
  let t : Fin cfg0.N := ⟨(i 0).val / 5000, by show _ < grid0.N; omega⟩
  obtain ⟨-, -, -, -, -, -, -, -, e0, e1⟩ := index_facts t
  have htv : t.val = (i 0).val / 5000 := rfl
  refine ⟨t, flush0_4 t, ?_⟩
  rw [mem_tile]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE OUTPUT ARRAY after the call: the layer of the arrays the call finds. -/
theorem final (c : Dev nD) :
    (dat0 V c).arrAt 4 cfg0.N = layer (V c main_v9) (V c main_arg0) (V c main_arg9) (V c main_v30) :=
  (dat0 V c).arrAt_eq_of_cover 4 _ (fun t _ => flushed_eq V c t) covered

end Cert.KernelIdeal.Tiles0

end
-- ==== Proof.Tiles1.lean ====
/-
  The second call, from tiles to the whole array.

  The call walks ten grid points; point `t` reads rows `5000 t … 5000 t + 4999` of the aggregate and of the node
  features, the whole weight matrix and the whole bias row, and writes back the same rows of its output. So the
  tile written at point `t` is rows `5000 t …` of ONE function of the arrays the call finds — the layer of
  `Spec` — and, the ten tiles covering all 50000 rows (row `r` lies in tile `r / 5000`), the output array ends
  holding that function everywhere.
-/
import proofs.«131037_j66185446032026_2_alg».proof.Proof.Gen.KernelIdeal.Frame
import proofs.«131037_j66185446032026_2_alg».proof.Proof.Body
import proofs.«131037_j66185446032026_2_alg».proof.Proof.Spec
import Idealize.ShloMosaic.Lib.Pipeline.Value
import Idealize.ShloMosaic.Lib.ValueIdx

set_option maxRecDepth 16384

noncomputable section

namespace Cert.KernelIdeal.Tiles1

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the tiled windows sit at block row `t`, block column 0; the weights
    and the bias row are always block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Each window's tile read where the array is -/

/-- Row `p` of the aggregate's tile at point `t` is row `5000 t + p` of the aggregate. -/
theorem agg_tile (c : Dev nD) (t : Fin cfg1.N) (p : Fin 5000) (k : Fin 128) (r : Fin 50000) (hr : r.val = t.val * 5000 + p.val) :
    iblk1 V c 0 t (ix2 p k) = V c main_v19 (ix2 r k) := by
  obtain ⟨e0, e1, -⟩ := index_facts t
  show V c main_v19 (((cfg1.win 0).blk t).view.emb (ix2 p k)) = V c main_v19 (ix2 r k)
  refine congrArg (V c main_v19) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the node features' tile at point `t` is row `5000 t + p` of the node features. -/
theorem own_tile (c : Dev nD) (t : Fin cfg1.N) (p : Fin 5000) (j : Fin 128) (r : Fin 50000) (hr : r.val = t.val * 5000 + p.val) :
    iblk1 V c 1 t (ix2 p j) = V c main_arg1 (ix2 r j) := by
  obtain ⟨-, -, e0, e1, -⟩ := index_facts t
  show V c main_arg1 (((cfg1.win 1).blk t).view.emb (ix2 p j)) = V c main_arg1 (ix2 r j)
  refine congrArg (V c main_arg1) (funext fun a => Fin.ext ?_)
  match a with
  | ⟨0, _⟩ => show win1_1.index t (0 : Fin 2) * 5000 + 1 * p.val = r.val; omega
  | ⟨1, _⟩ => show win1_1.index t (1 : Fin 2) * 128 + 1 * j.val = j.val; omega

/-- The weights' tile is the whole weight matrix at every point. -/
theorem weights_tile (c : Dev nD) (t : Fin cfg1.N) (k j : Fin 128) :
    iblk1 V c 2 t (ix2 k j) = V c main_arg10 (ix2 k j) := by
  obtain ⟨-, -, -, -, e0, e1, -⟩ := index_facts t
  show V c main_arg10 (((cfg1.win 2).blk t).view.emb (ix2 k j)) = V c main_arg10 (ix2 k j)
  refine congrArg (V c main_arg10) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The bias' tile is the whole bias row at every point. -/
theorem bias_tile (c : Dev nD) (t : Fin cfg1.N) (j : Fin 128) :
    iblk1 V c 3 t (ix2 0 j) = V c main_v32 (ix2 0 j) := by
  obtain ⟨-, -, -, -, -, -, e0, e1, -⟩ := index_facts t
  show V c main_v32 (((cfg1.win 3).blk t).view.emb (ix2 0 j)) = V c main_v32 (ix2 0 j)
  refine congrArg (V c main_v32) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

/-! ## What a point writes back -/

/-- What point `t` writes back is tile `t` of the layer of the arrays the call finds. -/
theorem flushed_eq (c : Dev nD) (t : Fin cfg1.N) :
    (dat1 V c).flushed 4 t = ((cfg1.win 4).blk t).view.read (Elt Ideal)
      (layer (V c main_v19) (V c main_arg1) (V c main_arg10) (V c main_v32)) := by
  show (cfg1.win 4).cut (grid1.coords t) ((dat1 V c).after 4 t) = _
  rw [after1_4]
  unfold out1_4
  rw [View.canon_unit_zero origin]
  simp only [View.ld_unit_zero (S := S5000x128) origin, View.ld_unit_zero (S := S128x128) origin, View.ld_unit_zero (S := S1x128) origin]
  funext y
  obtain ⟨p, j, rfl⟩ : ∃ (p : Fin 5000) (j : Fin 128), y = ix2 p j := ⟨y 0, y 1, eq_ix2 y⟩
  obtain ⟨-, -, -, -, -, -, -, -, e0, e1⟩ := index_facts t
  have hN : grid1.N = 10 := N_1
  have ht : t.val < 10 := hN ▸ t.isLt
  have hp : p.val < 5000 := p.isLt
  have hrow : t.val * 5000 + p.val < 50000 := by omega
  have hemb : ((cfg1.win 4).blk t).view.emb (ix2 p j) = ix2 (⟨t.val * 5000 + p.val, hrow⟩ : Fin 50000) j := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * j.val = j.val; omega
  show k1_pay1 (F := Ideal) (iblk1 V c 0 t) (iblk1 V c 1 t) (iblk1 V c 2 t) (iblk1 V c 3 t) (ix2 p j)
    = layer (V c main_v19) (V c main_arg1) (V c main_arg10) (V c main_v32) (((cfg1.win 4).blk t).view.emb (ix2 p j))
  rw [hemb, layer_apply]
  refine (Body.stored_apply (iblk1 V c 0 t) (iblk1 V c 1 t) (iblk1 V c 2 t) (iblk1 V c 3 t) p j).trans ?_
  rw [own_tile V c t p j ⟨t.val * 5000 + p.val, hrow⟩ rfl, bias_tile V c t j]
  refine congrArg (fun s => max (s + V c main_v32 (ix2 0 j)) (Ideal.ofBits .f32 0x00000000#32) + V c main_arg1 (ix2 (⟨t.val * 5000 + p.val, hrow⟩ : Fin 50000) j)) ?_
  exact Finset.sum_congr rfl fun k _ => by rw [agg_tile V c t p k ⟨t.val * 5000 + p.val, hrow⟩ rfl, weights_tile V c t k j]

/-! ## The cover -/

/-- An entry of the output array is in point `t`'s tile iff each coordinate is in the tile's range on its axis. -/
theorem mem_tile (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v33).slice (win1_4.rect t)).set ↔ _
  rw [View.set_slice_whole, Rect.mem_set_unit]
  exact Iff.rfl

/-- Every entry is in the tile of the point `row / 5000`. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  let t : Fin cfg1.N := ⟨(i 0).val / 5000, by show _ < grid1.N; omega⟩
  obtain ⟨-, -, -, -, -, -, -, -, e0, e1⟩ := index_facts t
  have htv : t.val = (i 0).val / 5000 := rfl
  refine ⟨t, flush1_4 t, ?_⟩
  rw [mem_tile]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE OUTPUT ARRAY after the call: the layer of the arrays the call finds. -/
theorem final (c : Dev nD) :
    (dat1 V c).arrAt 4 cfg1.N = layer (V c main_v19) (V c main_arg1) (V c main_arg10) (V c main_v32) :=
  (dat1 V c).arrAt_eq_of_cover 4 _ (fun t _ => flushed_eq V c t) covered

end Cert.KernelIdeal.Tiles1

end
-- ==== Proof.Tiles2.lean ====
/-
  The third call, from tiles to the whole array.

  The call walks ten grid points; point `t` reads rows `5000 t … 5000 t + 4999` of the aggregate and of the node
  features, the whole weight matrix and the whole bias row, and writes back the same rows of its output. So the
  tile written at point `t` is rows `5000 t …` of ONE function of the arrays the call finds — the layer of
  `Spec` — and, the ten tiles covering all 50000 rows (row `r` lies in tile `r / 5000`), the output array ends
  holding that function everywhere.
-/
import proofs.«131037_j66185446032026_2_alg».proof.Proof.Gen.KernelIdeal.Frame
import proofs.«131037_j66185446032026_2_alg».proof.Proof.Body
import proofs.«131037_j66185446032026_2_alg».proof.Proof.Spec
import Idealize.ShloMosaic.Lib.Pipeline.Value
import Idealize.ShloMosaic.Lib.ValueIdx

set_option maxRecDepth 16384

noncomputable section

namespace Cert.KernelIdeal.Tiles2

open Idealize.ShloMosaic Idealize.ShloMosaic.TcCoe Idealize.ShloMosaic.ValueIdx Idealize.SL.Sem
open Idealize.ShloMosaic.Pipeline (Dat)
open Cert.KernelIdeal Cert.KernelIdeal.Gen Cert.GraphConv

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten points: the tiled windows sit at block row `t`, block column 0; the weights
    and the bias row are always block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## Each window's tile read where the array is -/

/-- Row `p` of the aggregate's tile at point `t` is row `5000 t + p` of the aggregate. -/
theorem agg_tile (c : Dev nD) (t : Fin cfg2.N) (p : Fin 5000) (k : Fin 128) (r : Fin 50000) (hr : r.val = t.val * 5000 + p.val) :
    iblk2 V c 0 t (ix2 p k) = V c main_v29 (ix2 r k) := by
  obtain ⟨e0, e1, -⟩ := index_facts t
  show V c main_v29 (((cfg2.win 0).blk t).view.emb (ix2 p k)) = V c main_v29 (ix2 r k)
  refine congrArg (V c main_v29) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row `p` of the node features' tile at point `t` is row `5000 t + p` of the node features. -/
theorem own_tile (c : Dev nD) (t : Fin cfg2.N) (p : Fin 5000) (j : Fin 128) (r : Fin 50000) (hr : r.val = t.val * 5000 + p.val) :
    iblk2 V c 1 t (ix2 p j) = V c main_arg2 (ix2 r j) := by
  obtain ⟨-, -, e0, e1, -⟩ := index_facts t
  show V c main_arg2 (((cfg2.win 1).blk t).view.emb (ix2 p j)) = V c main_arg2 (ix2 r j)
  refine congrArg (V c main_arg2) (funext fun a => Fin.ext ?_)
  match a with
  | ⟨0, _⟩ => show win2_1.index t (0 : Fin 2) * 5000 + 1 * p.val = r.val; omega
  | ⟨1, _⟩ => show win2_1.index t (1 : Fin 2) * 128 + 1 * j.val = j.val; omega

/-- The weights' tile is the whole weight matrix at every point. -/
theorem weights_tile (c : Dev nD) (t : Fin cfg2.N) (k j : Fin 128) :
    iblk2 V c 2 t (ix2 k j) = V c main_arg11 (ix2 k j) := by
  obtain ⟨-, -, -, -, e0, e1, -⟩ := index_facts t
  show V c main_arg11 (((cfg2.win 2).blk t).view.emb (ix2 k j)) = V c main_arg11 (ix2 k j)
  refine congrArg (V c main_arg11) (funext fun a => Fin.ext ?_)
  match a with
  | ⟨0, _⟩ => show win2_2.index t (0 : Fin 2) * 128 + 1 * k.val = k.val; omega
  | ⟨1, _⟩ => show win2_2.index t (1 : Fin 2) * 128 + 1 * j.val = j.val; omega

/-- The bias' tile is the whole bias row at every point. -/
theorem bias_tile (c : Dev nD) (t : Fin cfg2.N) (j : Fin 128) :
    iblk2 V c 3 t (ix2 0 j) = V c main_v34 (ix2 0 j) := by
  obtain ⟨-, -, -, -, -, -, e0, e1, -⟩ := index_facts t
  show V c main_v34 (((cfg2.win 3).blk t).view.emb (ix2 0 j)) = V c main_v34 (ix2 0 j)
  refine congrArg (V c main_v34) (funext fun a => Fin.ext ?_)
  match a with
  | ⟨0, _⟩ => show win2_3.index t (0 : Fin 2) * 1 + 1 * 0 = 0; omega
  | ⟨1, _⟩ => show win2_3.index t (1 : Fin 2) * 128 + 1 * j.val = j.val; omega

/-! ## What a point writes back -/

/-- What point `t` writes back is tile `t` of the layer of the arrays the call finds. -/
theorem flushed_eq (c : Dev nD) (t : Fin cfg2.N) :
    (dat2 V c).flushed 4 t = ((cfg2.win 4).blk t).view.read (Elt Ideal)
      (layer (V c main_v29) (V c main_arg2) (V c main_arg11) (V c main_v34)) := by
  show (cfg2.win 4).cut (grid2.coords t) ((dat2 V c).after 4 t) = _
  rw [after2_4]
  unfold out2_4
  rw [View.canon_unit_zero origin]
  simp only [View.ld_unit_zero (S := S5000x128) origin, View.ld_unit_zero (S := S128x128) origin, View.ld_unit_zero (S := S1x128) origin]
  funext y
  obtain ⟨p, j, rfl⟩ : ∃ (p : Fin 5000) (j : Fin 128), y = ix2 p j := ⟨y 0, y 1, eq_ix2 y⟩
  obtain ⟨-, -, -, -, -, -, -, -, e0, e1⟩ := index_facts t
  have hN : grid2.N = 10 := N_2
  have ht : t.val < 10 := hN ▸ t.isLt
  have hp : p.val < 5000 := p.isLt
  have hrow : t.val * 5000 + p.val < 50000 := by omega
  have hemb : ((cfg2.win 4).blk t).view.emb (ix2 p j) = ix2 (⟨t.val * 5000 + p.val, hrow⟩ : Fin 50000) j := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * j.val = j.val; omega
  show k2_pay1 (F := Ideal) (iblk2 V c 0 t) (iblk2 V c 1 t) (iblk2 V c 2 t) (iblk2 V c 3 t) (ix2 p j)
    = layer (V c main_v29) (V c main_arg2) (V c main_arg11) (V c main_v34) (((cfg2.win 4).blk t).view.emb (ix2 p j))
  rw [hemb, layer_apply]
  refine (Body.stored_apply (iblk2 V c 0 t) (iblk2 V c 1 t) (iblk2 V c 2 t) (iblk2 V c 3 t) p j).trans ?_
  rw [own_tile V c t p j ⟨t.val * 5000 + p.val, hrow⟩ rfl, bias_tile V c t j]
  refine congrArg (fun s => max (s + V c main_v34 (ix2 0 j)) (Ideal.ofBits .f32 0x00000000#32) + V c main_arg2 (ix2 (⟨t.val * 5000 + p.val, hrow⟩ : Fin 50000) j)) ?_
  exact Finset.sum_congr rfl fun k _ => by rw [agg_tile V c t p k ⟨t.val * 5000 + p.val, hrow⟩ rfl, weights_tile V c t k j]

/-! ## The cover -/

/-- An entry of the output array is in point `t`'s tile iff each coordinate is in the tile's range on its axis. -/
theorem mem_tile (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v35).slice (win2_4.rect t)).set ↔ _
  rw [View.set_slice_whole, Rect.mem_set_unit]
  exact Iff.rfl

/-- Every entry is in the tile of the point `row / 5000`. -/
theorem covered (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  let t : Fin cfg2.N := ⟨(i 0).val / 5000, by show _ < grid2.N; omega⟩
  obtain ⟨-, -, -, -, -, -, -, -, e0, e1⟩ := index_facts t
  have htv : t.val = (i 0).val / 5000 := rfl
  refine ⟨t, flush2_4 t, ?_⟩
  rw [mem_tile]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- THE OUTPUT ARRAY after the call: the layer of the arrays the call finds. -/
theorem final (c : Dev nD) :
    (dat2 V c).arrAt 4 cfg2.N = layer (V c main_v29) (V c main_arg2) (V c main_arg11) (V c main_v34) :=
  (dat2 V c).arrAt_eq_of_cover 4 _ (fun t _ => flushed_eq V c t) covered

end Cert.KernelIdeal.Tiles2

end
-- ==== Proof.Results.lean ====
/-
  The idealized kernel program's run, with its three results named.

  At the end of a run every buffer holds the last boundary's contents. The third result is an array of the third
  call, so it holds what that call's write-backs leave: the layer of what the call found. The second result is
  untouched by the third call and by the bias layout before it, so it still holds what the second call left; the
  first likewise. What each call found is the branch's aggregate, the launch contents of the branch's node features
  and weights, and the branch's bias as a row. Hence each result is the layer of its branch's arguments.
-/
import proofs.«131037_j66185446032026_2_alg».proof.Proof.EndState
import proofs.«131037_j66185446032026_2_alg».proof.Proof.Found
import proofs.«131037_j66185446032026_2_alg».proof.Proof.Tiles0
import proofs.«131037_j66185446032026_2_alg».proof.Proof.Tiles1
import proofs.«131037_j66185446032026_2_alg».proof.Proof.Tiles2

set_option maxRecDepth 16384

noncomputable section

namespace Cert.KernelIdeal.Results

open Idealize.ShloMosaic Idealize.ShloMosaic.TcCoe Idealize.SL.Sem Idealize.ShloMosaic.StableHlo
open Cert.KernelIdeal Cert.KernelIdeal.Gen Cert.KernelIdeal.Entry Cert.GraphConv

variable (m : (ℓ : Loc nD τ sig) → Buf (Elt Ideal) ℓ) (ρ : Dev nD → PrngReg)

/-- The third result: an array of the last call. -/
theorem third (c : Dev nD) : W6 m ρ c (Proc.devRef .tc main_v35)
    = layer (aggregate (m ((c : Thread nD τ).loc main_arg2)) (m ((c : Thread nD τ).loc main_arg7)) (m ((c : Thread nD τ).loc main_arg8))) (m ((c : Thread nD τ).loc main_arg2)) (m ((c : Thread nD τ).loc main_arg11)) (biasRow (m ((c : Thread nD τ).loc main_arg14))) := by
  refine (W6_arr m ρ c 4).trans ?_
  rw [Tiles2.final (V5 m ρ) c, Found.agg2 m ρ c, Found.own2 m ρ c, Found.weights2 m ρ c, Found.bias2 m ρ c]

/-- The second result: left by the second call, kept by the third bias' layout and the third call. -/
theorem second (c : Dev nD) : W6 m ρ c (Proc.devRef .tc main_v33)
    = layer (aggregate (m ((c : Thread nD τ).loc main_arg1)) (m ((c : Thread nD τ).loc main_arg5)) (m ((c : Thread nD τ).loc main_arg6))) (m ((c : Thread nD τ).loc main_arg1)) (m ((c : Thread nD τ).loc main_arg10)) (biasRow (m ((c : Thread nD τ).loc main_arg13))) := by
  rw [W6_of_ne m ρ c main_v33 (by decide)]
  show StableHlo.after hostOps2 (W4 m ρ c) (Proc.devRef .tc main_v33) = _
  after_results
  refine (W4_arr m ρ c 4).trans ?_
  rw [Tiles1.final (V3 m ρ) c, Found.agg1 m ρ c, Found.own1 m ρ c, Found.weights1 m ρ c, Found.bias1 m ρ c]

/-- The first result: left by the first call, kept by everything after it. -/
theorem first (c : Dev nD) : W6 m ρ c (Proc.devRef .tc main_v31)
    = layer (aggregate (m ((c : Thread nD τ).loc main_arg0)) (m ((c : Thread nD τ).loc main_arg3)) (m ((c : Thread nD τ).loc main_arg4))) (m ((c : Thread nD τ).loc main_arg0)) (m ((c : Thread nD τ).loc main_arg9)) (biasRow (m ((c : Thread nD τ).loc main_arg12))) := by
  rw [W6_of_ne m ρ c main_v31 (by decide)]
  show StableHlo.after hostOps2 (W4 m ρ c) (Proc.devRef .tc main_v31) = _
  after_results
  rw [W4_of_ne m ρ c main_v31 (by decide)]
  show StableHlo.after hostOps1 (W2 m ρ c) (Proc.devRef .tc main_v31) = _
  after_results
  refine (W2_arr m ρ c 4).trans ?_
  rw [Tiles0.final (V1 m ρ) c, Found.agg0 m ρ c, Found.own0 m ρ c, Found.weights0 m ρ c, Found.bias0 m ρ c]

/-- THE RUN: every weakly fair execution terminates, nothing faulting; each result ends at the layer of its branch's
    arguments, and the arguments end as launched. -/
theorem run : θ_run defs (onTc (τ := τ) (main (F := Ideal))) ⟨m, fun _ => 0, ρ⟩ (fun r => ∀ c : Dev nD,
      r.2.mem ((c.tc : Thread nD τ).loc main_v31) = layer (aggregate (m ((c : Thread nD τ).loc main_arg0)) (m ((c : Thread nD τ).loc main_arg3)) (m ((c : Thread nD τ).loc main_arg4))) (m ((c : Thread nD τ).loc main_arg0)) (m ((c : Thread nD τ).loc main_arg9)) (biasRow (m ((c : Thread nD τ).loc main_arg12)))
      ∧ r.2.mem ((c.tc : Thread nD τ).loc main_v33) = layer (aggregate (m ((c : Thread nD τ).loc main_arg1)) (m ((c : Thread nD τ).loc main_arg5)) (m ((c : Thread nD τ).loc main_arg6))) (m ((c : Thread nD τ).loc main_arg1)) (m ((c : Thread nD τ).loc main_arg10)) (biasRow (m ((c : Thread nD τ).loc main_arg13)))
      ∧ r.2.mem ((c.tc : Thread nD τ).loc main_v35) = layer (aggregate (m ((c : Thread nD τ).loc main_arg2)) (m ((c : Thread nD τ).loc main_arg7)) (m ((c : Thread nD τ).loc main_arg8))) (m ((c : Thread nD τ).loc main_arg2)) (m ((c : Thread nD τ).loc main_arg11)) (biasRow (m ((c : Thread nD τ).loc main_arg14)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(EndState.at_end m ρ r h c main_v31 (by decide)).trans (first m ρ c),
     (EndState.at_end m ρ r h c main_v33 (by decide)).trans (second m ρ c),
     (EndState.at_end m ρ r h c main_v35 (by decide)).trans (third m ρ c),
     (EndState.at_end m ρ r h c main_arg0 (by decide)).trans (W6_main_arg0 m ρ c),
     (EndState.at_end m ρ r h c main_arg1 (by decide)).trans (W6_main_arg1 m ρ c),
     (EndState.at_end m ρ r h c main_arg2 (by decide)).trans (W6_main_arg2 m ρ c),
     (EndState.at_end m ρ r h c main_arg3 (by decide)).trans (W6_main_arg3 m ρ c),
     (EndState.at_end m ρ r h c main_arg4 (by decide)).trans (W6_main_arg4 m ρ c),
     (EndState.at_end m ρ r h c main_arg5 (by decide)).trans (W6_main_arg5 m ρ c),
     (EndState.at_end m ρ r h c main_arg6 (by decide)).trans (W6_main_arg6 m ρ c),
     (EndState.at_end m ρ r h c main_arg7 (by decide)).trans (W6_main_arg7 m ρ c),
     (EndState.at_end m ρ r h c main_arg8 (by decide)).trans (W6_main_arg8 m ρ c),
     (EndState.at_end m ρ r h c main_arg9 (by decide)).trans (W6_main_arg9 m ρ c),
     (EndState.at_end m ρ r h c main_arg10 (by decide)).trans (W6_main_arg10 m ρ c),
     (EndState.at_end m ρ r h c main_arg11 (by decide)).trans (W6_main_arg11 m ρ c),
     (EndState.at_end m ρ r h c main_arg12 (by decide)).trans (W6_main_arg12 m ρ c),
     (EndState.at_end m ρ r h c main_arg13 (by decide)).trans (W6_main_arg13 m ρ c),
     (EndState.at_end m ρ r h c main_arg14 (by decide)).trans (W6_main_arg14 m ρ c)⟩) (EndState.run_all m ρ)

end Cert.KernelIdeal.Results

end
-- ==== Proof.RefLayer.lean ====
/-
  The reference program's three results are the layer of `Spec`, branch by branch.

  The reference aggregates a branch on the host exactly as the kernel program does, multiplies the whole aggregate
  by the weights in one host product, adds the bias (laid out as a row, then spread over all rows), rectifies
  against a zero array and adds the node features. Read at node `i 0` and feature `i 1`, the host product is the
  sum over `k` of the aggregate at `(i 0, k)` times the weight at `(k, i 1)`, and the spread bias is the bias row at
  `(0, i 1)`: the layer's formula, with the same operations in the same order.
-/
import proofs.«131037_j66185446032026_2_alg».proof.Proof.Gen.ReferenceIdeal.Read
import proofs.«131037_j66185446032026_2_alg».proof.Proof.Spec

noncomputable section

namespace Cert.ReferenceIdeal.RefLayer

open Idealize.ShloMosaic Idealize.ShloMosaic.ValueIdx
open Cert.ReferenceIdeal Cert.ReferenceIdeal.Gen Cert.ReferenceIdeal.Read Cert.GraphConv

/-- Where the host product reads its left factor: row `i 0`, column `k`. -/
theorem left_at (i : S50000x128.Idx) (k : Fin 128) : lidx_main_v10 i k = ix2 (n0 := 50000) (n1 := 128) (i 0) k :=
  funext fun a => Fin.ext (by match a with | ⟨0, _⟩ => rfl | ⟨1, _⟩ => rfl)
/-- Where it reads its right factor: row `k`, column `i 1`. -/
theorem right_at (i : S50000x128.Idx) (k : Fin 128) : ridx_main_v10 i k = ix2 (n0 := 128) (n1 := 128) k (i 1) :=
  funext fun a => Fin.ext (by match a with | ⟨0, _⟩ => rfl | ⟨1, _⟩ => rfl)
/-- Where the spread bias reads the bias row: row 0, column `i 1`. -/
theorem bias_at (i : S50000x128.Idx) : idx_main_v12 i = ix2 (n0 := 1) (n1 := 128) 0 (i 1) :=
  funext fun a => Fin.ext (by match a with | ⟨0, _⟩ => rfl | ⟨1, _⟩ => rfl)

/-- The first branch. -/
theorem branch0 (x0 : (⟨S50000x128, .f32⟩ : BufTy).Contents (Elt Ideal)) (x3 x4 : (⟨S600000, .i32⟩ : BufTy).Contents (Elt Ideal))
    (x9 : (⟨S128x128, .f32⟩ : BufTy).Contents (Elt Ideal)) (x12 : (⟨S128, .f32⟩ : BufTy).Contents (Elt Ideal)) :
    val_main_v15 (F := Ideal) x0 x3 x4 x9 x12 = layer (val_main_v9 (F := Ideal) x0 x3 x4) x0 x9 (val_main_v11 (F := Ideal) x12) := by
  funext i
  rw [val_main_v15_apply, val_main_v14_apply, val_main_v13_apply, val_main_v10_apply, val_main_v12_apply,
    val_main_call0_v0_apply, val_main_call0_cst_apply]
  simp only [left_at, right_at, bias_at]
  rfl

/-- Where the second branch's host product and spread bias read their operands: as in the first branch. -/
theorem left_at1 (i : S50000x128.Idx) (k : Fin 128) : lidx_main_v26 i k = ix2 (n0 := 50000) (n1 := 128) (i 0) k :=
  funext fun a => Fin.ext (by match a with | ⟨0, _⟩ => rfl | ⟨1, _⟩ => rfl)
theorem right_at1 (i : S50000x128.Idx) (k : Fin 128) : ridx_main_v26 i k = ix2 (n0 := 128) (n1 := 128) k (i 1) :=
  funext fun a => Fin.ext (by match a with | ⟨0, _⟩ => rfl | ⟨1, _⟩ => rfl)
theorem bias_at1 (i : S50000x128.Idx) : idx_main_v28 i = ix2 (n0 := 1) (n1 := 128) 0 (i 1) :=
  funext fun a => Fin.ext (by match a with | ⟨0, _⟩ => rfl | ⟨1, _⟩ => rfl)

/-- The second branch. -/
theorem branch1 (x1 : (⟨S50000x128, .f32⟩ : BufTy).Contents (Elt Ideal)) (x5 x6 : (⟨S600000, .i32⟩ : BufTy).Contents (Elt Ideal))
    (x10 : (⟨S128x128, .f32⟩ : BufTy).Contents (Elt Ideal)) (x13 : (⟨S128, .f32⟩ : BufTy).Contents (Elt Ideal)) :
    val_main_v31 (F := Ideal) x1 x5 x6 x10 x13
      = layer (val_main_v25 (F := Ideal) x1 x5 x6) x1 x10 (val_main_v27 (F := Ideal) x13) := by
  funext i
  rw [val_main_v31_apply, val_main_v30_apply, val_main_v29_apply, val_main_v26_apply, val_main_v28_apply,
    val_main_call1_v0_apply, val_main_call1_cst_apply]
  simp only [left_at1, right_at1, bias_at1]
  rfl

/-- Where the third branch's host product and spread bias read their operands: as in the first branch. -/
theorem left_at2 (i : S50000x128.Idx) (k : Fin 128) : lidx_main_v42 i k = ix2 (n0 := 50000) (n1 := 128) (i 0) k :=
  funext fun a => Fin.ext (by match a with | ⟨0, _⟩ => rfl | ⟨1, _⟩ => rfl)
theorem right_at2 (i : S50000x128.Idx) (k : Fin 128) : ridx_main_v42 i k = ix2 (n0 := 128) (n1 := 128) k (i 1) :=
  funext fun a => Fin.ext (by match a with | ⟨0, _⟩ => rfl | ⟨1, _⟩ => rfl)
theorem bias_at2 (i : S50000x128.Idx) : idx_main_v44 i = ix2 (n0 := 1) (n1 := 128) 0 (i 1) :=
  funext fun a => Fin.ext (by match a with | ⟨0, _⟩ => rfl | ⟨1, _⟩ => rfl)

/-- The third branch. -/
theorem branch2 (x2 : (⟨S50000x128, .f32⟩ : BufTy).Contents (Elt Ideal)) (x7 x8 : (⟨S600000, .i32⟩ : BufTy).Contents (Elt Ideal))
    (x11 : (⟨S128x128, .f32⟩ : BufTy).Contents (Elt Ideal)) (x14 : (⟨S128, .f32⟩ : BufTy).Contents (Elt Ideal)) :
    val_main_v47 (F := Ideal) x2 x7 x8 x11 x14
      = layer (val_main_v41 (F := Ideal) x2 x7 x8) x2 x11 (val_main_v43 (F := Ideal) x14) := by
  funext i
  rw [val_main_v47_apply, val_main_v46_apply, val_main_v45_apply, val_main_v42_apply, val_main_v44_apply,
    val_main_call2_v0_apply, val_main_call2_cst_apply]
  simp only [left_at2, right_at2, bias_at2]
  rfl

end Cert.ReferenceIdeal.RefLayer

end
-- ==== Proof.lean ====
/-
  The certificate of a three-branch graph-convolution layer against its array-language reference.

  THE TWO PROGRAMS. Both aggregate each branch on the host in the same way: every edge carries the feature row of its
  source node to its destination node, and the rows arriving at a node are summed from zero. The reference then
  multiplies the whole aggregate by the branch's weights, adds the bias, rectifies and adds the node features, all on
  the host. The kernel program hands the aggregate to a call that does the same ten row-tiles at a time: a tile of
  5000 aggregate rows against the whole weight matrix (the factors first narrowed to a shorter float format), plus
  the bias row, rectified, plus the same rows of the node features.

  WHY THEY AGREE ON THE EXTENDED REALS. The narrowing is the identity there, a row-tile of a matrix product is the
  product of the row-tile, and the ten tiles cover every row. So at node r and feature j both programs end with

      max (∑ k, agg (r, k) · W (k, j) + b (j)) 0 + h (r, j),

  the same operations in the same order — no law of arithmetic is needed, and so no finiteness of the inputs.

  THE PARTS. Spec states the formula. Body reads the call's stored tile at an entry; Tiles0–2 go from tiles to the
  whole output array of each call; Entry, EntryArgs and Found say what the host wrote and what each call finds;
  EndState is the program's run with every buffer at its last contents, and Results names the three results.
  RefLayer reads the reference's three results as the same formula. The idealization rewrote no operation, so the
  kernel program's idealization is its own text.
-/
import proofs.«131037_j66185446032026_2_alg».proof.Defs
import proofs.«131037_j66185446032026_2_alg».proof.Proof.Gen.Kernel
import proofs.«131037_j66185446032026_2_alg».proof.Proof.Gen.Kernel.Skeleton
import proofs.«131037_j66185446032026_2_alg».proof.Proof.Gen.Kernel.Launch
import proofs.«131037_j66185446032026_2_alg».proof.Proof.Gen.Kernel.Points
import proofs.«131037_j66185446032026_2_alg».proof.Proof.Gen.Kernel.Frame
import proofs.«131037_j66185446032026_2_alg».proof.Proof.Gen.KernelIdeal
import proofs.«131037_j66185446032026_2_alg».proof.Proof.Gen.KernelIdeal.Skeleton
import proofs.«131037_j66185446032026_2_alg».proof.Proof.Gen.KernelIdeal.Launch
import proofs.«131037_j66185446032026_2_alg».proof.Proof.Gen.KernelIdeal.Points
import proofs.«131037_j66185446032026_2_alg».proof.Proof.Gen.KernelIdeal.Frame
import proofs.«131037_j66185446032026_2_alg».proof.Proof.Gen.ReferenceIdeal
import proofs.«131037_j66185446032026_2_alg».proof.Proof.Gen.ReferenceIdeal.Run
import proofs.«131037_j66185446032026_2_alg».proof.Proof.Gen.ReferenceIdeal.Read
import proofs.«131037_j66185446032026_2_alg».proof.Proof.Gen.Pre_finite_inputs
import proofs.«131037_j66185446032026_2_alg».proof.Proof.Results
import proofs.«131037_j66185446032026_2_alg».proof.Proof.RefLayer
import Idealize.ShloMosaic.Adequacy
import Idealize.ShloMosaic.Init

noncomputable section

namespace Cert.Proof

open Idealize.ShloMosaic Idealize.SL.Sem

/-- The kernel program as printed runs to the end and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the arguments both programs end with, branch by branch, the layer of that branch's
    aggregate, node features, weights and bias: the kernel program by its run with the results named, the reference
    by its run read as the same formula. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun r h c => ?_) (Cert.ReferenceIdeal.Value.run (F := Ideal) m' ρ')
  obtain ⟨h0, h1, h2, hkept⟩ := h c
  obtain ⟨a0, a1, a2, a3, a4, a5, a6, a7, a8, a9, a10, a11, a12, a13, a14⟩ := hagree c
  refine ⟨h0.trans ?_, h1.trans ?_, h2.trans ?_, hkept⟩
  · rw [Cert.ReferenceIdeal.Read.val_main_v15_eq, Cert.ReferenceIdeal.RefLayer.branch0, a0, a3, a4, a9, a12]
    rfl
  · rw [Cert.ReferenceIdeal.Read.val_main_v31_eq, Cert.ReferenceIdeal.RefLayer.branch1, a1, a5, a6, a10, a13]
    rfl
  · rw [Cert.ReferenceIdeal.Read.val_main_v47_eq, Cert.ReferenceIdeal.RefLayer.branch2, a2, a7, a8, a11, a14]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
